-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x128 .f32) (main_arg5 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S2000x256 : Shape := ⟨2, ![2000, 256]⟩
abbrev S2000x128 : Shape := ⟨2, ![2000, 128]⟩
abbrev S1700000x128 : Shape := ⟨2, ![1700000, 128]⟩
abbrev S1x128 : Shape := ⟨2, ![1, 128]⟩

abbrev nBuf : Space → Nat
  | .hbm => 77
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S100000x128, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x128, .f32⟩
  | .hbm, ⟨49, _⟩ => ⟨S1700000x1, .f32⟩
  | .hbm, ⟨50, _⟩ => ⟨S1700000x128, .f32⟩
  | .hbm, ⟨51, _⟩ => ⟨S1700000x128, .f32⟩
  | .hbm, ⟨52, _⟩ => ⟨S_, .f32⟩
  | .hbm, ⟨53, _⟩ => ⟨S100000x128, .f32⟩
  | .hbm, ⟨54, _⟩ => ⟨S1700000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .i32⟩
  | .hbm, ⟨60, _⟩ => ⟨S1700000, .i32⟩
  | .hbm, ⟨61, _⟩ => ⟨S1700000, .i1⟩
  | .hbm, ⟨62, _⟩ => ⟨S_, .i32⟩
  | .hbm, ⟨63, _⟩ => ⟨S1700000, .i32⟩
  | .hbm, ⟨64, _⟩ => ⟨S1700000, .i32⟩
  | .hbm, ⟨65, _⟩ => ⟨S1700000, .i32⟩
  | .hbm, ⟨66, _⟩ => ⟨S1700000x1, .i32⟩
  | .hbm, ⟨67, _⟩ => ⟨S1700000x128, .f32⟩
  | .hbm, ⟨68, _⟩ => ⟨S1700000x1, .f32⟩
  | .hbm, ⟨69, _⟩ => ⟨S1700000x128, .f32⟩
  | .hbm, ⟨70, _⟩ => ⟨S1700000x128, .f32⟩
  | .hbm, ⟨71, _⟩ => ⟨S_, .f32⟩
  | .hbm, ⟨72, _⟩ => ⟨S100000x128, .f32⟩
  | .hbm, ⟨73, _⟩ => ⟨S1700000x1, .i32⟩
  | .hbm, ⟨74, _⟩ => ⟨S100000x128, .f32⟩
  | .hbm, ⟨75, _⟩ => ⟨S1x128, .f32⟩
  | .hbm, ⟨76, _⟩ => ⟨S100000x128, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_7 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x256_S256x128_S2000x128_1_0_0_1_n_n_wf : DotDims.WF S2000x256 S256x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩

abbrev nBuf : Space → Nat
  | .hbm => 85
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S100000x128, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x128, .f32⟩
  | .hbm, ⟨49, _⟩ => ⟨S1700000x1, .f32⟩
  | .hbm, ⟨50, _⟩ => ⟨S1700000x128, .f32⟩
  | .hbm, ⟨51, _⟩ => ⟨S1700000x128, .f32⟩
  | .hbm, ⟨52, _⟩ => ⟨S_, .f32⟩
  | .hbm, ⟨53, _⟩ => ⟨S100000x128, .f32⟩
  | .hbm, ⟨54, _⟩ => ⟨S1700000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000x128, .f32⟩
  | .hbm, ⟨72, _⟩ => ⟨S1700000x1, .f32⟩
  | .hbm, ⟨73, _⟩ => ⟨S1700000x128, .f32⟩
  | .hbm, ⟨74, _⟩ => ⟨S1700000x128, .f32⟩
  | .hbm, ⟨75, _⟩ => ⟨S_, .f32⟩
  | .hbm, ⟨76, _⟩ => ⟨S100000x128, .f32⟩
  | .hbm, ⟨77, _⟩ => ⟨S1700000x1, .i32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S100000x128, .f32⟩
  | .hbm, ⟨84, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_call1_cst : Ref sig .tc := ⟨.hbm, 82, rfl⟩
abbrev main_call1_v0 : Ref sig .tc := ⟨.hbm, 83, rfl⟩
abbrev main_v62 : Ref sig .tc := ⟨.hbm, 84, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  A two-layer graph convolution as one function of its six arguments.

  The edge list `ei : i32[2, 1600000]` gives 1 600 000 edges (row 0 the sources, row 1 the targets); every node gets a
  self-loop, so there are 1 700 000 (source, target) pairs `src`, `dst`.  A node's degree is the number of pairs that
  end in it, the weight of a pair is `deg[src]^(-1/2) · deg[dst]^(-1/2)`, and one layer sends features `h` to
  `relu (A (h · W) + b)` where `A` adds, into each node, the weighted rows of its incoming pairs:
      (A g)[n, :] = Σ_{e : dst e = n} weight e · g[src e, :].
  The aggregation `A` (a gather, a scaling and a scatter-add) is kept as ONE function `aggregate` and never opened:
  both programs apply the very same operations there, so only its argument has to be compared.
-/
import proofs.«158342_j33741263078295_1_alg».proof.Proof.Gen.ReferenceIdeal

noncomputable section

namespace Cert.Gcn

open Idealize.ShloMosaic Cert.ReferenceIdeal Cert.ReferenceIdeal.Facts₀ Cert.ReferenceIdeal.Facts

variable {F : FTy → Type} [FloatOps F]

/-- Row `r` of the edge list followed by the node numbers 0 … 99999 (the self-loops): the sources for `r = 0`. -/
def sources (ei : (⟨S2x1600000, .i32⟩ : BufTy).Contents (Elt F)) : (⟨S1700000, .i32⟩ : BufTy).Contents (Elt F) :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The targets: row 1 of the edge list followed by the self-loops. -/
def targets (ei : (⟨S2x1600000, .i32⟩ : BufTy).Contents (Elt F)) : (⟨S1700000, .i32⟩ : BufTy).Contents (Elt F) :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- A node number read the way `x[idx]` reads it: a negative one counts from the end. -/
def wrapped (v : (⟨S1700000, .i32⟩ : BufTy).Contents (Elt F)) : (⟨S1700000, .i32⟩ : BufTy).Contents (Elt F) :=
  select (cmpi .slt v (broadcastInDim S1700000 ![] bcast_S_S1700000 (constantI S_ 32 0#32))) (addi v (broadcastInDim S1700000 ![] bcast_S_S1700000 (constantI S_ 32 100000#32))) v

/-- `deg^(-1/2)` per node: the degree counts the pairs ending in the node (a scatter-add of ones). -/
def invSqrtDeg (ei : (⟨S2x1600000, .i32⟩ : BufTy).Contents (Elt F)) : (⟨S100000, .f32⟩ : BufTy).Contents (Elt F) :=
  Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (targets ei)) (broadcastInDim S1700000 ![] bcast_S_S1700000 (constant S_ .f32 0x3F800000#32)))

/-- The weight of each pair: `deg[src]^(-1/2) · deg[dst]^(-1/2)`. -/
def weights (ei : (⟨S2x1600000, .i32⟩ : BufTy).Contents (Elt F)) : (⟨S1700000, .f32⟩ : BufTy).Contents (Elt F) :=
  mulf (Host.gather gather_S100000_S1700000x1_S1700000_n_0_n_n_0_1_1 (invSqrtDeg ei) (broadcastInDim S1700000x1 ![0] bcast_S1700000_S1700000x1_0 (wrapped (sources ei))))
    (Host.gather gather_S100000_S1700000x1_S1700000_n_0_n_n_0_1_1 (invSqrtDeg ei) (broadcastInDim S1700000x1 ![0] bcast_S1700000_S1700000x1_0 (wrapped (targets ei))))

/-- THE AGGREGATION of node features `g` along pairs `(s, d)` with weights `n`: node `v` receives the sum over the pairs
    ending in `v` of `n · g[s, :]` (gather the source rows, scale, scatter-add into zeros). -/
def aggregate (s d : (⟨S1700000, .i32⟩ : BufTy).Contents (Elt F)) (n : (⟨S1700000, .f32⟩ : BufTy).Contents (Elt F))
    (g : (⟨S100000x128, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 d)
    (mulf (Host.gather gather_S100000x128_S1700000x1_S1700000x128_1_0_n_n_0_1_1128 g (broadcastInDim S1700000x1 ![0] bcast_S1700000_S1700000x1_0 (wrapped s)))
      (broadcastInDim S1700000x128 ![0, 1] bcast_S1700000x1_S1700000x128_0_1 (broadcastInDim S1700000x1 ![0] bcast_S1700000_S1700000x1_0 n)))

/-- `relu (a + b)`, the bias `b` added to every row. -/
def biasRelu (a : (⟨S100000x128, .f32⟩ : BufTy).Contents (Elt F)) (b : (⟨S128, .f32⟩ : BufTy).Contents (Elt F)) :
    (⟨S100000x128, .f32⟩ : BufTy).Contents (Elt F) :=
  maximumf (addf a (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- The first layer's dense product `x · W1`. -/
def dense1 (x : (⟨S100000x256, .f32⟩ : BufTy).Contents (Elt F)) (w : (⟨S256x128, .f32⟩ : BufTy).Contents (Elt F)) :
    (⟨S100000x128, .f32⟩ : BufTy).Contents (Elt F) :=
  Host.dotGeneral dot_S100000x256_S256x128_S100000x128_1_0_0_1_n_n none x w

/-- The second layer's dense product `h · W2`. -/
def dense2 (h : (⟨S100000x128, .f32⟩ : BufTy).Contents (Elt F)) (w : (⟨S128x128, .f32⟩ : BufTy).Contents (Elt F)) :
    (⟨S100000x128, .f32⟩ : BufTy).Contents (Elt F) :=
  Host.dotGeneral dot_S100000x128_S128x128_S100000x128_1_0_0_1_n_n none h w

/-- THE NETWORK: two layers `h ↦ relu (A (h · W) + b)` over the same pairs and weights. -/
def gcn (x : (⟨S100000x256, .f32⟩ : BufTy).Contents (Elt F)) (ei : (⟨S2x1600000, .i32⟩ : BufTy).Contents (Elt F))
    (w1 : (⟨S256x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F)) :
    (⟨S100000x128, .f32⟩ : BufTy).Contents (Elt F) :=
  biasRelu (aggregate (sources ei) (targets ei) (weights ei)
    (dense2 (biasRelu (aggregate (sources ei) (targets ei) (weights ei) (dense1 x w1)) b1) w2)) b2

end Cert.Gcn

end
-- ==== Proof.RefIsSpec.lean ====
/-
  The reference program computes the network: its result's term, built by composing its operations in order, is
  `Cert.Gcn.gcn` of the six arguments once the names of the shared sub-terms (the pairs, the weights, the
  aggregation, a layer's bias and relu) are opened — the two are the same term.
-/
import proofs.«158342_j33741263078295_1_alg».proof.Proof.Gen.ReferenceIdeal.Run
import proofs.«158342_j33741263078295_1_alg».proof.Proof.Spec

noncomputable section

namespace Cert.Gcn

open Idealize.ShloMosaic Idealize.ShloMosaic.TcCoe Idealize.SL.Sem Cert.ReferenceIdeal

variable {F : FTy → Type} [FloatOps F]

set_option maxRecDepth 8192 in
/-- What the reference's run leaves in its result buffer is the network of the launch contents of its arguments. -/
theorem reference_result (m : (ℓ : Loc nD τ sig) → Buf (Elt F) ℓ) (c : Dev nD) :
    Cert.ReferenceIdeal.Value.res_main_v62 m c
      = gcn (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.Value.res_main_v62 gcn biasRelu aggregate dense1 dense2 weights invSqrtDeg wrapped sources targets
  rfl

end Cert.Gcn

end
-- ==== Proof.KernelRun.lean ====
/-
  The idealized kernel program's run with its last boundary NAMED.

  @main is seven segments: a stretch of host operations, the first dense product's region, a second stretch, the first
  bias-and-relu region, the second dense product's region, a third stretch, the second bias-and-relu region.  The
  generated frame walks the buffer contents through these boundaries (`W0` … `W7`) and keeps, of the last one, only
  that the arguments are as launched.  Here the same launch is read in full: every weakly fair execution ends with
  EVERY unscoped buffer at the last boundary's contents `W7` — in particular the result buffer.
-/
import proofs.«158342_j33741263078295_1_alg».proof.Proof.Gen.KernelIdeal.Frame

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at the
    last boundary's contents: the segments' launch, the last thread state read against the final memory. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The run with the result buffer named: it ends at the last boundary's contents, and the six arguments as launched. -/
theorem run_named : θ_run defs (onTc (τ := τ) (main (F := F))) ⟨m, fun _ => 0, ρ⟩ (fun r => ∀ c : Dev nD,
      r.2.mem ((c.tc : Thread nD τ).loc main_v58) = W7 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨h c _ (mem_uc main_v58 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)
    (run_boundary m ρ)

end Cert.KernelIdeal.Named

end
-- ==== Proof.LibPlainDot.lean ====
/-
  A plain matrix product read at an index.

  For the dimension numbers of an `M×K` by `K×N` product (`DotDims.plain`: the left operand contracted on its second
  axis, the right one on its first, no batch axis), the sum over the contraction index of the operands' products at
  result index `(i, j)` is `Σ_k l[i,k]·r[k,j]` over `k : Fin K`. Stated for the sum itself, so that it serves a
  kernel's matrix product into a zero accumulator and a host's `dot_general` alike.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction shape of a plain product has one axis. -/
theorem plain_contr_rank (M K N : Nat) : (DotDims.plain M K N).contr.rank = 1 := rfl

/-- The left operand's index at result `(i, j)` and contraction position `k` is `(i, k)`. -/
theorem plain_lhsIdx (M K N : Nat) (i : Fin M) (j : Fin N) (k : Fin K) :
    (DotDims.plain M K N).lhsIdx (ix2 i j) ((contrEquiv1 (DotDims.plain M K N) K rfl rfl).symm k) = ix2 i k := by
  funext a
  refine Fin.ext ?_
  match a with
  | ⟨0, _⟩ => rfl
  | ⟨1, _⟩ =>
    show (((contrEquiv1 (DotDims.plain M K N) K rfl rfl).symm k) ⟨0, (Nat.one_pos : 0 < 1)⟩ : ℕ) = k.val
    exact contrEquiv1_symm_val (DotDims.plain M K N) K rfl rfl k

/-- The right operand's index at result `(i, j)` and contraction position `k` is `(k, j)`. -/
theorem plain_rhsIdx (M K N : Nat) (i : Fin M) (j : Fin N) (k : Fin K) :
    (DotDims.plain M K N).rhsIdx (ix2 i j) ((contrEquiv1 (DotDims.plain M K N) K rfl rfl).symm k) = ix2 k j := by
  funext a
  refine Fin.ext ?_
  match a with
  | ⟨0, _⟩ =>
    show (((contrEquiv1 (DotDims.plain M K N) K rfl rfl).symm k) ⟨0, (Nat.one_pos : 0 < 1)⟩ : ℕ) = k.val
    exact contrEquiv1_symm_val (DotDims.plain M K N) K rfl rfl k
  | ⟨1, _⟩ => rfl

/-- THE PLAIN PRODUCT'S SUM at `(i, j)`: over `k : Fin K`, of `l[i,k]·r[k,j]`. -/
theorem plain_sum (M K N : Nat) (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  exact Finset.sum_congr rfl fun k _ => by rw [plain_lhsIdx, plain_rhsIdx]

/-- A host `dot_general` with the plain dimension numbers, at the ideal values, read at `(i, j)`. -/
theorem plain_dotGeneral_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    Host.dotGeneral (DotDims.plain M K N) prec l r (ix2 i j) = ∑ k : Fin K, l (ix2 i k) * r (ix2 k j) :=
  (Ideal.dotGeneral_apply (DotDims.plain M K N) prec _ l r (ix2 i j)).trans (plain_sum M K N l r i j)

/-- A kernel's matrix product with the plain dimension numbers into the zero splat, at the ideal values, read at `(i, j)`. -/
theorem plain_matmul_zero_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    matmul (DotDims.plain M K N) prec l r (constant ⟨2, ![M, N]⟩ .f32 0x00000000#32) (ix2 i j)
      = ∑ k : Fin K, l (ix2 i k) * r (ix2 k j) :=
  (Ideal.matmul_constant_zero_apply (DotDims.plain M K N) prec l r (ix2 i j)).trans (plain_sum M K N l r i j)

end Cert.Lib

end
-- ==== Proof.RegionDense.lean ====
/-
  The two dense products, each as one function of the arrays its region finds.

  A dense region walks fifty grid points; point `t` reads rows `2000·t … 2000·t + 1999` of the left operand and the
  whole weight matrix, multiplies them (operands rounded to bf16, accumulated in f32 from zero: on the extended reals
  the plain sum of products) and writes rows `2000·t …` of the result.  So the result array ends as the plain
  matrix product of the two operand arrays, entry by entry `Σ_k x[r,k]·w[k,q]` — the same sum a host
  `dot_general` takes.  Stated for ANY contents `V` of the buffers at the region's entry.
-/
import proofs.«158342_j33741263078295_1_alg».proof.Proof.Gen.KernelIdeal.Frame
import proofs.«158342_j33741263078295_1_alg».proof.Proof.LibPlainDot
import Idealize.ShloMosaic.Lib.Pipeline.Value
import Idealize.ShloMosaic.Lib.ValueIdx
import Idealize.ShloMosaic.PureOps.Ideal.Laws

noncomputable section

namespace Cert.KernelIdeal.Dense

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The first layer's product: a [100000, 256] array by a [256, 128] one. -/
abbrev product0 (x : FVec Ideal S100000x256 .f32) (w : FVec Ideal S256x128 .f32) : FVec Ideal S100000x128 .f32 :=
  Host.dotGeneral (F := Ideal) (DotDims.plain 100000 256 128) none x w

/-- The second layer's product: a [100000, 128] array by a [128, 128] one. -/
abbrev product2 (x : FVec Ideal S100000x128 .f32) (w : FVec Ideal S128x128 .f32) : FVec Ideal S100000x128 .f32 :=
  Host.dotGeneral (F := Ideal) (DotDims.plain 100000 128 128) none x w

/-! ## Region 0: the first layer's dense product, 2000 rows at a time -/

/-- The printed index maps over the grid: the row blocks of the left operand and of the result move with the point,
    the right operand is one block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's product at an entry of the block: the sum over the contraction index (rounding the operands to bf16
    changes nothing on the extended reals, and the accumulator starts at zero). -/
theorem pay0_apply (x0 : Vec Ideal S2000x256 .f32) (x1 : Vec Ideal S256x128 .f32) (p : Fin 2000) (q : Fin 128) :
    k0_pay1 x0 x1 (ix2 p q) = ∑ k : Fin 256, x0 (ix2 p k) * x1 (ix2 k q) := by
  unfold k0_pay1
  exact Cert.Lib.plain_matmul_zero_apply 2000 256 128 none _ _ p q

/-- Row `p` of the left operand's block at point `t` is row `2000·t + p` of the array. -/
theorem lhs0_apply (c : Dev nD) (t : Fin cfg0.N) (p : Fin 2000) (k : Fin 256) (r : Fin 100000)
    (hr : r.val = 2000 * t.val + p.val) :
    (iblk0 V c 0 t : Vec Ideal S2000x256 .f32) (ix2 p k) = V c main_arg0 (ix2 r k) := by
  obtain ⟨e0, e1, -⟩ := idx0 t
  unfold iblk0
  rw [View.read_apply]
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 2000 + 1 * p.val = r.val; rw [e0, hr]; omega
  | ⟨1, _⟩ => show win0_0.index t (1 : Fin 2) * 256 + 1 * k.val = k.val; rw [e1]; omega

/-- The right operand's one block is the whole weight matrix. -/
theorem rhs0_apply (c : Dev nD) (t : Fin cfg0.N) (k : Fin 256) (q : Fin 128) :
    (iblk0 V c 1 t : Vec Ideal S256x128 .f32) (ix2 k q) = V c main_arg2 (ix2 k q) := by
  obtain ⟨-, -, e2, e3, -⟩ := idx0 t
  unfold iblk0
  rw [View.read_apply]
  show V c main_arg2 (((cfg0.win 1).blk t).view.emb (ix2 k q)) = V c main_arg2 (ix2 k q)
  refine congrArg (V c main_arg2) (funext fun a => Fin.ext ?_)
  match a with
  | ⟨0, _⟩ => show win0_1.index t (0 : Fin 2) * 256 + 1 * k.val = k.val; rw [e2]; omega
  | ⟨1, _⟩ => show win0_1.index t (1 : Fin 2) * 128 + 1 * q.val = q.val; rw [e3]; omega

/-- Entry `(p, q)` of the result's block at point `t` sits at `(2000·t + p, q)` of the result array. -/
theorem out0_emb (t : Fin cfg0.N) (p : Fin 2000) (q : Fin 128) (r : Fin 100000) (hr : r.val = 2000 * t.val + p.val) :
    ((cfg0.win 2).blk t).view.emb (ix2 p q) = (ix2 r q : S100000x128.Idx) := by
  obtain ⟨-, -, -, -, e4, e5⟩ := idx0 t
  refine funext fun a => Fin.ext ?_
  match a with
  | ⟨0, _⟩ => show win0_2.index t (0 : Fin 2) * 2000 + 1 * p.val = r.val; rw [e4, hr]; omega
  | ⟨1, _⟩ => show win0_2.index t (1 : Fin 2) * 128 + 1 * q.val = q.val; rw [e5]; omega

/-- WHAT POINT `t` WRITES BACK is block `t` of the product of the two arrays as the region finds them. -/
theorem flushed0 (c : Dev nD) (t : Fin cfg0.N) :
    (dat0 V c).flushed 2 t = ((cfg0.win 2).blk t).view.read (Elt Ideal) (product0 (V c main_arg0) (V c main_arg2)) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x128) hz]
  funext j
  obtain ⟨p, q, rfl⟩ : ∃ (p : Fin 2000) (q : Fin 128), j = ix2 p q := ⟨j 0, j 1, eq_ix2 j⟩
  have hN : t.val < 50 := Nat.lt_of_lt_of_eq t.isLt N_0
  have hr : (⟨2000 * t.val + p.val, by omega⟩ : Fin 100000).val = 2000 * t.val + p.val := rfl
  show k0_pay1 (iblk0 V c 0 t) (iblk0 V c 1 t) (ix2 p q)
    = product0 (V c main_arg0) (V c main_arg2) (((cfg0.win 2).blk t).view.emb (ix2 p q))
  rw [out0_emb t p q _ hr]
  refine (pay0_apply (iblk0 V c 0 t) (iblk0 V c 1 t) p q).trans ?_
  refine Eq.trans ?_ (Cert.Lib.plain_dotGeneral_apply 100000 256 128 none (V c main_arg0) (V c main_arg2) _ q).symm
  exact Finset.sum_congr rfl fun k _ => by rw [lhs0_apply V c t p k _ hr, rhs0_apply V c t k q]

/-- An index of the result array is in point `t`'s block iff each coordinate is in the block's range on its axis. -/
theorem mem_blk0 (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v27).slice (win0_2.rect t)).set ↔ _
  rw [View.set_slice_whole, Rect.mem_set_unit]
  exact Iff.rfl

/-- Row `r` of the result is written by point `r / 2000`: the fifty row blocks cover the array. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 2000 < cfg0.N := Nat.lt_of_lt_of_eq (by omega : (i 0).val / 2000 < 50) N_0.symm
  obtain ⟨-, -, -, -, e4, e5⟩ := idx0 ⟨(i 0).val / 2000, ht⟩
  refine ⟨⟨(i 0).val / 2000, ht⟩, flush0_2 _, ?_⟩
  rw [mem_blk0]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ (1 : Fin 2) * 128 ≤ (i 1).val ∧ (i 1).val < win0_2.index ⟨(i 0).val / 2000, ht⟩ (1 : Fin 2) * 128 + 128
    rw [e5]; omega

/-- THE RESULT ARRAY after the region: the product of the two operand arrays as the region finds them. -/
theorem region0 (c : Dev nD) : (dat0 V c).arrAt 2 cfg0.N = product0 (V c main_arg0) (V c main_arg2) :=
  (dat0 V c).arrAt_eq_of_cover 2 (product0 (V c main_arg0) (V c main_arg2)) (fun t _ => flushed0 V c t) cover0

/-! ## Region 2: the second layer's dense product, 2000 rows at a time -/

/-- The printed index maps over the grid: the row blocks of the left operand and of the result move with the point,
    the right operand is one block. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's product at an entry of the block: the sum over the contraction index (rounding the operands to bf16
    changes nothing on the extended reals, and the accumulator starts at zero). -/
theorem pay2_apply (x0 : Vec Ideal S2000x128 .f32) (x1 : Vec Ideal S128x128 .f32) (p : Fin 2000) (q : Fin 128) :
    k2_pay1 x0 x1 (ix2 p q) = ∑ k : Fin 128, x0 (ix2 p k) * x1 (ix2 k q) := by
  unfold k2_pay1
  simp only [shapeCast_self]
  exact Cert.Lib.plain_matmul_zero_apply 2000 128 128 none _ _ p q

/-- Row `p` of the left operand's block at point `t` is row `2000·t + p` of the array. -/
theorem lhs2_apply (c : Dev nD) (t : Fin cfg2.N) (p : Fin 2000) (k : Fin 128) (r : Fin 100000)
    (hr : r.val = 2000 * t.val + p.val) :
    (iblk2 V c 0 t : Vec Ideal S2000x128 .f32) (ix2 p k) = V c main_v42 (ix2 r k) := by
  obtain ⟨e0, e1, -⟩ := idx2 t
  unfold iblk2
  rw [View.read_apply]
  show V c main_v42 (((cfg2.win 0).blk t).view.emb (ix2 p k)) = V c main_v42 (ix2 r k)
  refine congrArg (V c main_v42) (funext fun a => Fin.ext ?_)
  match a with
  | ⟨0, _⟩ => show win2_0.index t (0 : Fin 2) * 2000 + 1 * p.val = r.val; rw [e0, hr]; omega
  | ⟨1, _⟩ => show win2_0.index t (1 : Fin 2) * 128 + 1 * k.val = k.val; rw [e1]; omega

/-- The right operand's one block is the whole weight matrix. -/
theorem rhs2_apply (c : Dev nD) (t : Fin cfg2.N) (k : Fin 128) (q : Fin 128) :
    (iblk2 V c 1 t : Vec Ideal S128x128 .f32) (ix2 k q) = V c main_arg4 (ix2 k q) := by
  obtain ⟨-, -, e2, e3, -⟩ := idx2 t
  unfold iblk2
  rw [View.read_apply]
  show V c main_arg4 (((cfg2.win 1).blk t).view.emb (ix2 k q)) = V c main_arg4 (ix2 k q)
  refine congrArg (V c main_arg4) (funext fun a => Fin.ext ?_)
  match a with
  | ⟨0, _⟩ => show win2_1.index t (0 : Fin 2) * 128 + 1 * k.val = k.val; rw [e2]; omega
  | ⟨1, _⟩ => show win2_1.index t (1 : Fin 2) * 128 + 1 * q.val = q.val; rw [e3]; omega

/-- Entry `(p, q)` of the result's block at point `t` sits at `(2000·t + p, q)` of the result array. -/
theorem out2_emb (t : Fin cfg2.N) (p : Fin 2000) (q : Fin 128) (r : Fin 100000) (hr : r.val = 2000 * t.val + p.val) :
    ((cfg2.win 2).blk t).view.emb (ix2 p q) = (ix2 r q : S100000x128.Idx) := by
  obtain ⟨-, -, -, -, e4, e5⟩ := idx2 t
  refine funext fun a => Fin.ext ?_
  match a with
  | ⟨0, _⟩ => show win2_2.index t (0 : Fin 2) * 2000 + 1 * p.val = r.val; rw [e4, hr]; omega
  | ⟨1, _⟩ => show win2_2.index t (1 : Fin 2) * 128 + 1 * q.val = q.val; rw [e5]; omega

/-- WHAT POINT `t` WRITES BACK is block `t` of the product of the two arrays as the region finds them. -/
theorem flushed2 (c : Dev nD) (t : Fin cfg2.N) :
    (dat2 V c).flushed 2 t = ((cfg2.win 2).blk t).view.read (Elt Ideal) (product2 (V c main_v42) (V c main_arg4)) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x128) hz]
  funext j
  obtain ⟨p, q, rfl⟩ : ∃ (p : Fin 2000) (q : Fin 128), j = ix2 p q := ⟨j 0, j 1, eq_ix2 j⟩
  have hN : t.val < 50 := Nat.lt_of_lt_of_eq t.isLt N_2
  have hr : (⟨2000 * t.val + p.val, by omega⟩ : Fin 100000).val = 2000 * t.val + p.val := rfl
  show k2_pay1 (iblk2 V c 0 t) (iblk2 V c 1 t) (ix2 p q)
    = product2 (V c main_v42) (V c main_arg4) (((cfg2.win 2).blk t).view.emb (ix2 p q))
  rw [out2_emb t p q _ hr]
  refine (pay2_apply (iblk2 V c 0 t) (iblk2 V c 1 t) p q).trans ?_
  refine Eq.trans ?_ (Cert.Lib.plain_dotGeneral_apply 100000 128 128 none (V c main_v42) (V c main_arg4) _ q).symm
  exact Finset.sum_congr rfl fun k _ => by rw [lhs2_apply V c t p k _ hr, rhs2_apply V c t k q]

/-- An index of the result array is in point `t`'s block iff each coordinate is in the block's range on its axis. -/
theorem mem_blk2 (t : Fin cfg2.N) (i : S100000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v43).slice (win2_2.rect t)).set ↔ _
  rw [View.set_slice_whole, Rect.mem_set_unit]
  exact Iff.rfl

/-- Row `r` of the result is written by point `r / 2000`: the fifty row blocks cover the array. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have ht : (i 0).val / 2000 < cfg2.N := Nat.lt_of_lt_of_eq (by omega : (i 0).val / 2000 < 50) N_2.symm
  obtain ⟨-, -, -, -, e4, e5⟩ := idx2 ⟨(i 0).val / 2000, ht⟩
  refine ⟨⟨(i 0).val / 2000, ht⟩, flush2_2 _, ?_⟩
  rw [mem_blk2]
  intro a
  match a with
  | ⟨0, _⟩ =>
    show win2_2.index ⟨(i 0).val / 2000, ht⟩ (0 : Fin 2) * 2000 ≤ (i 0).val ∧ (i 0).val < win2_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win2_2.index ⟨(i 0).val / 2000, ht⟩ (1 : Fin 2) * 128 ≤ (i 1).val ∧ (i 1).val < win2_2.index ⟨(i 0).val / 2000, ht⟩ (1 : Fin 2) * 128 + 128
    rw [e5]; omega

/-- THE RESULT ARRAY after the region: the product of the two operand arrays as the region finds them. -/
theorem region2 (c : Dev nD) : (dat2 V c).arrAt 2 cfg2.N = product2 (V c main_v42) (V c main_arg4) :=
  (dat2 V c).arrAt_eq_of_cover 2 (product2 (V c main_v42) (V c main_arg4)) (fun t _ => flushed2 V c t) cover2

end Cert.KernelIdeal.Dense

end
-- ==== Proof.RegionBias.lean ====
/-
  The two bias-and-relu regions, each as one function of the arrays its region finds.

  Such a region walks fifty grid points; point `t` reads rows `2000·t … 2000·t + 1999` of a [100000, 128] array and
  the one [1, 128] bias row, adds the bias to every row, replaces what is negative by zero and writes rows
  `2000·t …` of the result.  So the result array ends, entry by entry, at `max (a[r,q] + b[0,q]) 0`.
  Stated for ANY contents `V` of the buffers at the region's entry.
-/
import proofs.«158342_j33741263078295_1_alg».proof.Proof.Gen.KernelIdeal.Frame
import Idealize.ShloMosaic.Lib.Pipeline.Value
import Idealize.ShloMosaic.Lib.ValueIdx
import Idealize.ShloMosaic.Lib.ValueLayout

noncomputable section

namespace Cert.KernelIdeal.Bias

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- A [100000, 128] array plus a bias row on every row, negatives replaced by zero. -/
def rowBiasRelu (a : S100000x128.Idx → EReal) (b : S1x128.Idx → EReal) : S100000x128.Idx → EReal :=
  fun i => max (a i + b (ix2 (0 : Fin 1) (i 1))) (Ideal.ofBits .f32 0x00000000#32)

theorem rowBiasRelu_apply (a : S100000x128.Idx → EReal) (b : S1x128.Idx → EReal) (r : Fin 100000) (q : Fin 128) :
    rowBiasRelu a b (ix2 r q) = max (a (ix2 r q) + b (ix2 (0 : Fin 1) q)) (Ideal.ofBits .f32 0x00000000#32) := rfl

/-! ## Region 1: the first layer's bias and relu, 2000 rows at a time -/

/-- The printed index maps over the grid: the row blocks of the operand and of the result move with the point, the
    bias row is one block. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body's value at an entry of the block: the entry plus the bias of its column, or zero if that is negative. -/
theorem pay1_apply (x0 : Vec Ideal S2000x128 .f32) (x1 : Vec Ideal S1x128 .f32) (p : Fin 2000) (q : Fin 128) :
    k1_pay1 x0 x1 (ix2 p q) = max (x0 (ix2 p q) + x1 (ix2 (0 : Fin 1) q)) (Ideal.ofBits .f32 0x00000000#32) := by
  unfold k1_pay1
  simp only [shapeCast_self]
  show max (x0 (ix2 p q) + broadcastTo S2000x128 x1 broadcasts_S1x128_S2000x128 (ix2 p q)) (Ideal.ofBits .f32 0x00000000#32) = _
  rw [broadcastTo_1b_ab_apply x1 broadcasts_S1x128_S2000x128 p q]

/-- Row `p` of the operand's block at point `t` is row `2000·t + p` of the array. -/
theorem lhs1_apply (c : Dev nD) (t : Fin cfg1.N) (p : Fin 2000) (q : Fin 128) (r : Fin 100000)
    (hr : r.val = 2000 * t.val + p.val) :
    (iblk1 V c 0 t : Vec Ideal S2000x128 .f32) (ix2 p q) = V c main_v40 (ix2 r q) := by
  obtain ⟨e0, e1, -⟩ := idx1 t
  unfold iblk1
  rw [View.read_apply]
  show V c main_v40 (((cfg1.win 0).blk t).view.emb (ix2 p q)) = V c main_v40 (ix2 r q)
  refine congrArg (V c main_v40) (funext fun a => Fin.ext ?_)
  match a with
  | ⟨0, _⟩ => show win1_0.index t (0 : Fin 2) * 2000 + 1 * p.val = r.val; rw [e0, hr]; omega
  | ⟨1, _⟩ => show win1_0.index t (1 : Fin 2) * 128 + 1 * q.val = q.val; rw [e1]; omega

/-- The bias window's one block is the whole bias row. -/
theorem row1_apply (c : Dev nD) (t : Fin cfg1.N) (q : Fin 128) :
    (iblk1 V c 1 t : Vec Ideal S1x128 .f32) (ix2 (0 : Fin 1) q) = V c main_v41 (ix2 (0 : Fin 1) q) := by
  obtain ⟨-, -, e2, e3, -⟩ := idx1 t
  unfold iblk1
  rw [View.read_apply]
  show V c main_v41 (((cfg1.win 1).blk t).view.emb (ix2 (0 : Fin 1) q)) = V c main_v41 (ix2 (0 : Fin 1) q)
  refine congrArg (V c main_v41) (funext fun a => Fin.ext ?_)
  match a with
  | ⟨0, _⟩ => show win1_1.index t (0 : Fin 2) * 1 + 1 * 0 = 0; rw [e2]
  | ⟨1, _⟩ => show win1_1.index t (1 : Fin 2) * 128 + 1 * q.val = q.val; rw [e3]; omega

/-- Entry `(p, q)` of the result's block at point `t` sits at `(2000·t + p, q)` of the result array. -/
theorem out1_emb (t : Fin cfg1.N) (p : Fin 2000) (q : Fin 128) (r : Fin 100000) (hr : r.val = 2000 * t.val + p.val) :
    ((cfg1.win 2).blk t).view.emb (ix2 p q) = (ix2 r q : S100000x128.Idx) := by
  obtain ⟨-, -, -, -, e4, e5⟩ := idx1 t
  refine funext fun a => Fin.ext ?_
  match a with
  | ⟨0, _⟩ => show win1_2.index t (0 : Fin 2) * 2000 + 1 * p.val = r.val; rw [e4, hr]; omega
  | ⟨1, _⟩ => show win1_2.index t (1 : Fin 2) * 128 + 1 * q.val = q.val; rw [e5]; omega

/-- WHAT POINT `t` WRITES BACK is block `t` of `rowBiasRelu` of the two arrays as the region finds them. -/
theorem flushed1 (c : Dev nD) (t : Fin cfg1.N) :
    (dat1 V c).flushed 2 t = ((cfg1.win 2).blk t).view.read (Elt Ideal) (rowBiasRelu (V c main_v40) (V c main_v41)) := by
  show (cfg1.win 2).cut (grid1.coords t) ((dat1 V c).after 2 t) = _
  rw [after1_2]
  unfold out1_2
  rw [View.canon_unit_zero hz]
  simp only [View.ld_unit_zero (S := S2000x128) hz, View.ld_unit_zero (S := S1x128) hz]
  funext j
  obtain ⟨p, q, rfl⟩ : ∃ (p : Fin 2000) (q : Fin 128), j = ix2 p q := ⟨j 0, j 1, eq_ix2 j⟩
  have hN : t.val < 50 := Nat.lt_of_lt_of_eq t.isLt N_1
  have hr : (⟨2000 * t.val + p.val, by omega⟩ : Fin 100000).val = 2000 * t.val + p.val := rfl
  show k1_pay1 (iblk1 V c 0 t) (iblk1 V c 1 t) (ix2 p q)
    = rowBiasRelu (V c main_v40) (V c main_v41) (((cfg1.win 2).blk t).view.emb (ix2 p q))
  rw [out1_emb t p q _ hr]
  rw [rowBiasRelu_apply]
  refine (pay1_apply (iblk1 V c 0 t) (iblk1 V c 1 t) p q).trans ?_
  rw [lhs1_apply V c t p q _ hr, row1_apply V c t q]

/-- An index of the result array is in point `t`'s block iff each coordinate is in the block's range on its axis. -/
theorem mem_blk1 (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v42).slice (win1_2.rect t)).set ↔ _
  rw [View.set_slice_whole, Rect.mem_set_unit]
  exact Iff.rfl

/-- Row `r` of the result is written by point `r / 2000`: the fifty row blocks cover the array. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have ht : (i 0).val / 2000 < cfg1.N := Nat.lt_of_lt_of_eq (by omega : (i 0).val / 2000 < 50) N_1.symm
  obtain ⟨-, -, -, -, e4, e5⟩ := idx1 ⟨(i 0).val / 2000, ht⟩
  refine ⟨⟨(i 0).val / 2000, ht⟩, flush1_2 _, ?_⟩
  rw [mem_blk1]
  intro a
  match a with
  | ⟨0, _⟩ =>
    show win1_2.index ⟨(i 0).val / 2000, ht⟩ (0 : Fin 2) * 2000 ≤ (i 0).val ∧ (i 0).val < win1_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win1_2.index ⟨(i 0).val / 2000, ht⟩ (1 : Fin 2) * 128 ≤ (i 1).val ∧ (i 1).val < win1_2.index ⟨(i 0).val / 2000, ht⟩ (1 : Fin 2) * 128 + 128
    rw [e5]; omega

/-- THE RESULT ARRAY after the region: `rowBiasRelu` of the operand array and the bias row as the region finds them. -/
theorem region1 (c : Dev nD) : (dat1 V c).arrAt 2 cfg1.N = rowBiasRelu (V c main_v40) (V c main_v41) :=
  (dat1 V c).arrAt_eq_of_cover 2 (rowBiasRelu (V c main_v40) (V c main_v41)) (fun t _ => flushed1 V c t) cover1

/-! ## Region 3: the second layer's bias and relu, 2000 rows at a time -/

/-- The printed index maps over the grid: the row blocks of the operand and of the result move with the point, the
    bias row is one block. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The body's value at an entry of the block: the entry plus the bias of its column, or zero if that is negative. -/
theorem pay3_apply (x0 : Vec Ideal S2000x128 .f32) (x1 : Vec Ideal S1x128 .f32) (p : Fin 2000) (q : Fin 128) :
    k3_pay1 x0 x1 (ix2 p q) = max (x0 (ix2 p q) + x1 (ix2 (0 : Fin 1) q)) (Ideal.ofBits .f32 0x00000000#32) := by
  unfold k3_pay1
  simp only [shapeCast_self]
  show max (x0 (ix2 p q) + broadcastTo S2000x128 x1 broadcasts_S1x128_S2000x128 (ix2 p q)) (Ideal.ofBits .f32 0x00000000#32) = _
  rw [broadcastTo_1b_ab_apply x1 broadcasts_S1x128_S2000x128 p q]

/-- Row `p` of the operand's block at point `t` is row `2000·t + p` of the array. -/
theorem lhs3_apply (c : Dev nD) (t : Fin cfg3.N) (p : Fin 2000) (q : Fin 128) (r : Fin 100000)
    (hr : r.val = 2000 * t.val + p.val) :
    (iblk3 V c 0 t : Vec Ideal S2000x128 .f32) (ix2 p q) = V c main_v56 (ix2 r q) := by
  obtain ⟨e0, e1, -⟩ := idx3 t
  unfold iblk3
  rw [View.read_apply]
  show V c main_v56 (((cfg3.win 0).blk t).view.emb (ix2 p q)) = V c main_v56 (ix2 r q)
  refine congrArg (V c main_v56) (funext fun a => Fin.ext ?_)
  match a with
  | ⟨0, _⟩ => show win3_0.index t (0 : Fin 2) * 2000 + 1 * p.val = r.val; rw [e0, hr]; omega
  | ⟨1, _⟩ => show win3_0.index t (1 : Fin 2) * 128 + 1 * q.val = q.val; rw [e1]; omega

/-- The bias window's one block is the whole bias row. -/
theorem row3_apply (c : Dev nD) (t : Fin cfg3.N) (q : Fin 128) :
    (iblk3 V c 1 t : Vec Ideal S1x128 .f32) (ix2 (0 : Fin 1) q) = V c main_v57 (ix2 (0 : Fin 1) q) := by
  obtain ⟨-, -, e2, e3, -⟩ := idx3 t
  unfold iblk3
  rw [View.read_apply]
  show V c main_v57 (((cfg3.win 1).blk t).view.emb (ix2 (0 : Fin 1) q)) = V c main_v57 (ix2 (0 : Fin 1) q)
  refine congrArg (V c main_v57) (funext fun a => Fin.ext ?_)
  match a with
  | ⟨0, _⟩ => show win3_1.index t (0 : Fin 2) * 1 + 1 * 0 = 0; rw [e2]
  | ⟨1, _⟩ => show win3_1.index t (1 : Fin 2) * 128 + 1 * q.val = q.val; rw [e3]; omega

/-- Entry `(p, q)` of the result's block at point `t` sits at `(2000·t + p, q)` of the result array. -/
theorem out3_emb (t : Fin cfg3.N) (p : Fin 2000) (q : Fin 128) (r : Fin 100000) (hr : r.val = 2000 * t.val + p.val) :
    ((cfg3.win 2).blk t).view.emb (ix2 p q) = (ix2 r q : S100000x128.Idx) := by
  obtain ⟨-, -, -, -, e4, e5⟩ := idx3 t
  refine funext fun a => Fin.ext ?_
  match a with
  | ⟨0, _⟩ => show win3_2.index t (0 : Fin 2) * 2000 + 1 * p.val = r.val; rw [e4, hr]; omega
  | ⟨1, _⟩ => show win3_2.index t (1 : Fin 2) * 128 + 1 * q.val = q.val; rw [e5]; omega

/-- WHAT POINT `t` WRITES BACK is block `t` of `rowBiasRelu` of the two arrays as the region finds them. -/
theorem flushed3 (c : Dev nD) (t : Fin cfg3.N) :
    (dat3 V c).flushed 2 t = ((cfg3.win 2).blk t).view.read (Elt Ideal) (rowBiasRelu (V c main_v56) (V c main_v57)) := by
  show (cfg3.win 2).cut (grid3.coords t) ((dat3 V c).after 2 t) = _
  rw [after3_2]
  unfold out3_2
  rw [View.canon_unit_zero hz]
  simp only [View.ld_unit_zero (S := S2000x128) hz, View.ld_unit_zero (S := S1x128) hz]
  funext j
  obtain ⟨p, q, rfl⟩ : ∃ (p : Fin 2000) (q : Fin 128), j = ix2 p q := ⟨j 0, j 1, eq_ix2 j⟩
  have hN : t.val < 50 := Nat.lt_of_lt_of_eq t.isLt N_3
  have hr : (⟨2000 * t.val + p.val, by omega⟩ : Fin 100000).val = 2000 * t.val + p.val := rfl
  show k3_pay1 (iblk3 V c 0 t) (iblk3 V c 1 t) (ix2 p q)
    = rowBiasRelu (V c main_v56) (V c main_v57) (((cfg3.win 2).blk t).view.emb (ix2 p q))
  rw [out3_emb t p q _ hr]
  rw [rowBiasRelu_apply]
  refine (pay3_apply (iblk3 V c 0 t) (iblk3 V c 1 t) p q).trans ?_
  rw [lhs3_apply V c t p q _ hr, row3_apply V c t q]

/-- An index of the result array is in point `t`'s block iff each coordinate is in the block's range on its axis. -/
theorem mem_blk3 (t : Fin cfg3.N) (i : S100000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v58).slice (win3_2.rect t)).set ↔ _
  rw [View.set_slice_whole, Rect.mem_set_unit]
  exact Iff.rfl

/-- Row `r` of the result is written by point `r / 2000`: the fifty row blocks cover the array. -/
theorem cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have ht : (i 0).val / 2000 < cfg3.N := Nat.lt_of_lt_of_eq (by omega : (i 0).val / 2000 < 50) N_3.symm
  obtain ⟨-, -, -, -, e4, e5⟩ := idx3 ⟨(i 0).val / 2000, ht⟩
  refine ⟨⟨(i 0).val / 2000, ht⟩, flush3_2 _, ?_⟩
  rw [mem_blk3]
  intro a
  match a with
  | ⟨0, _⟩ =>
    show win3_2.index ⟨(i 0).val / 2000, ht⟩ (0 : Fin 2) * 2000 ≤ (i 0).val ∧ (i 0).val < win3_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win3_2.index ⟨(i 0).val / 2000, ht⟩ (1 : Fin 2) * 128 ≤ (i 1).val ∧ (i 1).val < win3_2.index ⟨(i 0).val / 2000, ht⟩ (1 : Fin 2) * 128 + 128
    rw [e5]; omega

/-- THE RESULT ARRAY after the region: `rowBiasRelu` of the operand array and the bias row as the region finds them. -/
theorem region3 (c : Dev nD) : (dat3 V c).arrAt 2 cfg3.N = rowBiasRelu (V c main_v56) (V c main_v57) :=
  (dat3 V c).arrAt_eq_of_cover 2 (rowBiasRelu (V c main_v56) (V c main_v57)) (fun t _ => flushed3 V c t) cover3

end Cert.KernelIdeal.Bias

end
-- ==== Proof.KernelChain.lean ====
/-
  The idealized kernel program computes the network.

  The buffer contents are followed from the launch through @main's seven segments.  A stretch of host operations
  rewrites the buffers it writes as functions of the ones it reads; a region rewrites its result array as the dense
  product, or the bias-and-relu, of the arrays it finds, and leaves every other buffer alone.  Reading the result
  buffer back through the boundaries gives, layer by layer,
      relu (A (relu (A (x · W1) + b1) · W2) + b2),
  with the pairs, the weights and the aggregation `A` the very operations the reference applies (`Cert.Gcn`), the
  dense products equal to the host's `dot_general` and the bias-and-relu equal to the host's add-and-maximum, entry
  by entry.
-/
import proofs.«158342_j33741263078295_1_alg».proof.Proof.Gen.KernelIdeal.Frame
import proofs.«158342_j33741263078295_1_alg».proof.Proof.Spec
import proofs.«158342_j33741263078295_1_alg».proof.Proof.RegionDense
import proofs.«158342_j33741263078295_1_alg».proof.Proof.RegionBias
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Chain

open Idealize.ShloMosaic Idealize.ShloMosaic.TcCoe Idealize.ShloMosaic.ValueIdx Idealize.SL.Sem Idealize.ShloMosaic.StableHlo
open Cert.KernelIdeal Cert.KernelIdeal.Gen

/-! ## The stretches of host operations, over any contents `W` of the buffers before them -/

section Stretches

variable (W : Valuation τ sig (Elt Ideal))

/-- The first stretch builds the sources, the targets and the weights from the edge list. -/
theorem stretch0_sources : after hostOps0 W (Proc.devRef .tc main_v3) = Cert.Gcn.sources (W (Proc.devRef .tc main_arg1)) := by
  after_results
  rfl
theorem stretch0_targets : after hostOps0 W (Proc.devRef .tc main_v6) = Cert.Gcn.targets (W (Proc.devRef .tc main_arg1)) := by
  after_results
  rfl
theorem stretch0_weights : after hostOps0 W (Proc.devRef .tc main_v26) = Cert.Gcn.weights (W (Proc.devRef .tc main_arg1)) := by
  after_results_simp
  unfold Cert.Gcn.weights Cert.Gcn.invSqrtDeg Cert.Gcn.wrapped Cert.Gcn.sources Cert.Gcn.targets
  rfl
/-- It writes no argument. -/
theorem stretch0_arg0 : after hostOps0 W (Proc.devRef .tc main_arg0) = W (Proc.devRef .tc main_arg0) := by after_results
theorem stretch0_arg2 : after hostOps0 W (Proc.devRef .tc main_arg2) = W (Proc.devRef .tc main_arg2) := by after_results
theorem stretch0_arg3 : after hostOps0 W (Proc.devRef .tc main_arg3) = W (Proc.devRef .tc main_arg3) := by after_results
theorem stretch0_arg4 : after hostOps0 W (Proc.devRef .tc main_arg4) = W (Proc.devRef .tc main_arg4) := by after_results
theorem stretch0_arg5 : after hostOps0 W (Proc.devRef .tc main_arg5) = W (Proc.devRef .tc main_arg5) := by after_results

/-- The second stretch aggregates the first dense product and lays the first bias out as a row. -/
theorem stretch1_agg : after hostOps1 W (Proc.devRef .tc main_v40)
    = Cert.Gcn.aggregate (W (Proc.devRef .tc main_v3)) (W (Proc.devRef .tc main_v6)) (W (Proc.devRef .tc main_v26)) (W (Proc.devRef .tc main_v27)) := by
  after_results_simp
  unfold Cert.Gcn.aggregate Cert.Gcn.wrapped
  rfl
theorem stretch1_row : after hostOps1 W (Proc.devRef .tc main_v41) = shapeCast S1x128 (W (Proc.devRef .tc main_arg3)) shapeCasts_S128_S1x128 := by
  after_results
  rfl
theorem stretch1_v3 : after hostOps1 W (Proc.devRef .tc main_v3) = W (Proc.devRef .tc main_v3) := by after_results
theorem stretch1_v6 : after hostOps1 W (Proc.devRef .tc main_v6) = W (Proc.devRef .tc main_v6) := by after_results
theorem stretch1_v26 : after hostOps1 W (Proc.devRef .tc main_v26) = W (Proc.devRef .tc main_v26) := by after_results
theorem stretch1_arg4 : after hostOps1 W (Proc.devRef .tc main_arg4) = W (Proc.devRef .tc main_arg4) := by after_results
theorem stretch1_arg5 : after hostOps1 W (Proc.devRef .tc main_arg5) = W (Proc.devRef .tc main_arg5) := by after_results

/-- The third stretch aggregates the second dense product and lays the second bias out as a row. -/
theorem stretch3_agg : after hostOps3 W (Proc.devRef .tc main_v56)
    = Cert.Gcn.aggregate (W (Proc.devRef .tc main_v3)) (W (Proc.devRef .tc main_v6)) (W (Proc.devRef .tc main_v26)) (W (Proc.devRef .tc main_v43)) := by
  after_results_simp
  unfold Cert.Gcn.aggregate Cert.Gcn.wrapped
  rfl
theorem stretch3_row : after hostOps3 W (Proc.devRef .tc main_v57) = shapeCast S1x128 (W (Proc.devRef .tc main_arg5)) shapeCasts_S128_S1x128 := by
  after_results
  rfl

end Stretches

/-! ## The pieces of the network, as the regions compute them and as the reference spells them -/

section Bridges

/-- The first dense product's region computes the reference's first `dot_general`. -/
theorem dense1_eq (x : FVec Ideal S100000x256 .f32) (w : FVec Ideal S256x128 .f32) :
    Dense.product0 x w = Cert.Gcn.dense1 (F := Ideal) x w := rfl

/-- The second dense product's region computes the reference's second `dot_general`. -/
theorem dense2_eq (x : FVec Ideal S100000x128 .f32) (w : FVec Ideal S128x128 .f32) :
    Dense.product2 x w = Cert.Gcn.dense2 (F := Ideal) x w := rfl

/-- A bias-and-relu region, given the bias laid out as a [1, 128] row, computes the reference's broadcast, add and
    maximum: at entry `(r, q)` both are `max (a[r,q] + b[q]) 0`. -/
theorem biasRelu_eq (a : FVec Ideal S100000x128 .f32) (b : FVec Ideal S128 .f32) :
    Bias.rowBiasRelu a (shapeCast S1x128 b shapeCasts_S128_S1x128) = Cert.Gcn.biasRelu (F := Ideal) a b := by
  funext i
  obtain ⟨r, q, rfl⟩ : ∃ (r : Fin 100000) (q : Fin 128), i = ix2 r q := ⟨i 0, i 1, eq_ix2 i⟩
  rw [Bias.rowBiasRelu_apply, shapeCast_a_1a_apply b _ (0 : Fin 1) q]
  unfold Cert.Gcn.biasRelu
  refine congrArg (fun z => max (a (ix2 r q) + z) (Ideal.ofBits .f32 0x00000000#32)) (Eq.symm ?_)
  refine (broadcastInDim_apply _ _ _ (ix2 r q) (ix2 (0 : Fin 1) q) fun ax => ?_).trans
    (broadcastInDim_apply _ _ b (ix2 (0 : Fin 1) q) (ix1 q) fun ax => ?_)
  · match ax with
    | ⟨0, _⟩ => rfl
    | ⟨1, _⟩ => rfl
  · match ax with
    | ⟨0, _⟩ => rfl

end Bridges

/-! ## The boundaries, one after the other -/

section Walk

variable (m : (ℓ : Loc nD τ sig) → Buf (Elt Ideal) ℓ) (ρ : Dev nD → PrngReg) (c : Dev nD)

/-- The first layer's output: `relu (A (x · W1) + b1)`, in the regions' spelling. -/
def layer1 : FVec Ideal S100000x128 .f32 :=
  Bias.rowBiasRelu
    (Cert.Gcn.aggregate (Cert.Gcn.sources (m ((c.tc : Thread nD τ).loc main_arg1))) (Cert.Gcn.targets (m ((c.tc : Thread nD τ).loc main_arg1))) (Cert.Gcn.weights (m ((c.tc : Thread nD τ).loc main_arg1))) (Dense.product0 (m ((c.tc : Thread nD τ).loc main_arg0)) (m ((c.tc : Thread nD τ).loc main_arg2))))
    (shapeCast S1x128 (m ((c.tc : Thread nD τ).loc main_arg3)) shapeCasts_S128_S1x128)

/-- The second layer's output, in the regions' spelling. -/
def layer2 : FVec Ideal S100000x128 .f32 :=
  Bias.rowBiasRelu
    (Cert.Gcn.aggregate (Cert.Gcn.sources (m ((c.tc : Thread nD τ).loc main_arg1))) (Cert.Gcn.targets (m ((c.tc : Thread nD τ).loc main_arg1))) (Cert.Gcn.weights (m ((c.tc : Thread nD τ).loc main_arg1))) (Dense.product2 (layer1 m c) (m ((c.tc : Thread nD τ).loc main_arg4))))
    (shapeCast S1x128 (m ((c.tc : Thread nD τ).loc main_arg5)) shapeCasts_S128_S1x128)

/-! ### After the first stretch -/
theorem at1_arg0 : W1 m ρ c (Proc.devRef .tc main_arg0) = (m ((c.tc : Thread nD τ).loc main_arg0)) := stretch0_arg0 (W0 m ρ c)
theorem at1_arg2 : W1 m ρ c (Proc.devRef .tc main_arg2) = (m ((c.tc : Thread nD τ).loc main_arg2)) := stretch0_arg2 (W0 m ρ c)
theorem at1_arg3 : W1 m ρ c (Proc.devRef .tc main_arg3) = (m ((c.tc : Thread nD τ).loc main_arg3)) := stretch0_arg3 (W0 m ρ c)
theorem at1_arg4 : W1 m ρ c (Proc.devRef .tc main_arg4) = (m ((c.tc : Thread nD τ).loc main_arg4)) := stretch0_arg4 (W0 m ρ c)
theorem at1_arg5 : W1 m ρ c (Proc.devRef .tc main_arg5) = (m ((c.tc : Thread nD τ).loc main_arg5)) := stretch0_arg5 (W0 m ρ c)
theorem at1_sources : W1 m ρ c (Proc.devRef .tc main_v3) = Cert.Gcn.sources (m ((c.tc : Thread nD τ).loc main_arg1)) := stretch0_sources (W0 m ρ c)
theorem at1_targets : W1 m ρ c (Proc.devRef .tc main_v6) = Cert.Gcn.targets (m ((c.tc : Thread nD τ).loc main_arg1)) := stretch0_targets (W0 m ρ c)
theorem at1_weights : W1 m ρ c (Proc.devRef .tc main_v26) = Cert.Gcn.weights (m ((c.tc : Thread nD τ).loc main_arg1)) := stretch0_weights (W0 m ρ c)

/-! ### After the first dense region: its result array is the product, the rest is untouched -/
theorem at2_sources : W2 m ρ c (Proc.devRef .tc main_v3) = Cert.Gcn.sources (m ((c.tc : Thread nD τ).loc main_arg1)) := (W2_of_ne m ρ c main_v3 (by decide)).trans (at1_sources m ρ c)
theorem at2_targets : W2 m ρ c (Proc.devRef .tc main_v6) = Cert.Gcn.targets (m ((c.tc : Thread nD τ).loc main_arg1)) := (W2_of_ne m ρ c main_v6 (by decide)).trans (at1_targets m ρ c)
theorem at2_weights : W2 m ρ c (Proc.devRef .tc main_v26) = Cert.Gcn.weights (m ((c.tc : Thread nD τ).loc main_arg1)) := (W2_of_ne m ρ c main_v26 (by decide)).trans (at1_weights m ρ c)
theorem at2_arg3 : W2 m ρ c (Proc.devRef .tc main_arg3) = (m ((c.tc : Thread nD τ).loc main_arg3)) := (W2_of_ne m ρ c main_arg3 (by decide)).trans (at1_arg3 m ρ c)
theorem at2_arg4 : W2 m ρ c (Proc.devRef .tc main_arg4) = (m ((c.tc : Thread nD τ).loc main_arg4)) := (W2_of_ne m ρ c main_arg4 (by decide)).trans (at1_arg4 m ρ c)
theorem at2_arg5 : W2 m ρ c (Proc.devRef .tc main_arg5) = (m ((c.tc : Thread nD τ).loc main_arg5)) := (W2_of_ne m ρ c main_arg5 (by decide)).trans (at1_arg5 m ρ c)
theorem at2_product : W2 m ρ c (Proc.devRef .tc main_v27) = Dense.product0 (m ((c.tc : Thread nD τ).loc main_arg0)) (m ((c.tc : Thread nD τ).loc main_arg2)) := by
  refine (W2_arr m ρ c 2).trans ((Dense.region0 (V1 m ρ) c).trans ?_)
  have e0 : V1 m ρ c main_arg0 = (m ((c.tc : Thread nD τ).loc main_arg0)) := at1_arg0 m ρ c
  have e2 : V1 m ρ c main_arg2 = (m ((c.tc : Thread nD τ).loc main_arg2)) := at1_arg2 m ρ c
  rw [e0, e2]

/-! ### After the second stretch -/
theorem at3_sources : W3 m ρ c (Proc.devRef .tc main_v3) = Cert.Gcn.sources (m ((c.tc : Thread nD τ).loc main_arg1)) := (stretch1_v3 (W2 m ρ c)).trans (at2_sources m ρ c)
theorem at3_targets : W3 m ρ c (Proc.devRef .tc main_v6) = Cert.Gcn.targets (m ((c.tc : Thread nD τ).loc main_arg1)) := (stretch1_v6 (W2 m ρ c)).trans (at2_targets m ρ c)
theorem at3_weights : W3 m ρ c (Proc.devRef .tc main_v26) = Cert.Gcn.weights (m ((c.tc : Thread nD τ).loc main_arg1)) := (stretch1_v26 (W2 m ρ c)).trans (at2_weights m ρ c)
theorem at3_arg4 : W3 m ρ c (Proc.devRef .tc main_arg4) = (m ((c.tc : Thread nD τ).loc main_arg4)) := (stretch1_arg4 (W2 m ρ c)).trans (at2_arg4 m ρ c)
theorem at3_arg5 : W3 m ρ c (Proc.devRef .tc main_arg5) = (m ((c.tc : Thread nD τ).loc main_arg5)) := (stretch1_arg5 (W2 m ρ c)).trans (at2_arg5 m ρ c)
theorem at3_agg : W3 m ρ c (Proc.devRef .tc main_v40)
    = Cert.Gcn.aggregate (Cert.Gcn.sources (m ((c.tc : Thread nD τ).loc main_arg1))) (Cert.Gcn.targets (m ((c.tc : Thread nD τ).loc main_arg1))) (Cert.Gcn.weights (m ((c.tc : Thread nD τ).loc main_arg1))) (Dense.product0 (m ((c.tc : Thread nD τ).loc main_arg0)) (m ((c.tc : Thread nD τ).loc main_arg2))) := by
  refine (stretch1_agg (W2 m ρ c)).trans ?_
  rw [at2_sources m ρ c, at2_targets m ρ c, at2_weights m ρ c, at2_product m ρ c]
theorem at3_row : W3 m ρ c (Proc.devRef .tc main_v41) = shapeCast S1x128 (m ((c.tc : Thread nD τ).loc main_arg3)) shapeCasts_S128_S1x128 := by
  refine (stretch1_row (W2 m ρ c)).trans ?_
  rw [at2_arg3 m ρ c]

/-! ### After the first bias-and-relu region and the second dense region -/
theorem at4_layer1 : W4 m ρ c (Proc.devRef .tc main_v42) = layer1 m c := by
  refine (W4_arr m ρ c 2).trans ((Bias.region1 (V3 m ρ) c).trans ?_)
  have e0 : V3 m ρ c main_v40 = _ := at3_agg m ρ c
  have e1 : V3 m ρ c main_v41 = _ := at3_row m ρ c
  rw [e0, e1]
  rfl
theorem at4_sources : W4 m ρ c (Proc.devRef .tc main_v3) = Cert.Gcn.sources (m ((c.tc : Thread nD τ).loc main_arg1)) := (W4_of_ne m ρ c main_v3 (by decide)).trans (at3_sources m ρ c)
theorem at4_targets : W4 m ρ c (Proc.devRef .tc main_v6) = Cert.Gcn.targets (m ((c.tc : Thread nD τ).loc main_arg1)) := (W4_of_ne m ρ c main_v6 (by decide)).trans (at3_targets m ρ c)
theorem at4_weights : W4 m ρ c (Proc.devRef .tc main_v26) = Cert.Gcn.weights (m ((c.tc : Thread nD τ).loc main_arg1)) := (W4_of_ne m ρ c main_v26 (by decide)).trans (at3_weights m ρ c)
theorem at4_arg4 : W4 m ρ c (Proc.devRef .tc main_arg4) = (m ((c.tc : Thread nD τ).loc main_arg4)) := (W4_of_ne m ρ c main_arg4 (by decide)).trans (at3_arg4 m ρ c)
theorem at4_arg5 : W4 m ρ c (Proc.devRef .tc main_arg5) = (m ((c.tc : Thread nD τ).loc main_arg5)) := (W4_of_ne m ρ c main_arg5 (by decide)).trans (at3_arg5 m ρ c)

theorem at5_product : W5 m ρ c (Proc.devRef .tc main_v43) = Dense.product2 (layer1 m c) (m ((c.tc : Thread nD τ).loc main_arg4)) := by
  refine (W5_arr m ρ c 2).trans ((Dense.region2 (V4 m ρ) c).trans ?_)
  have e0 : V4 m ρ c main_v42 = _ := at4_layer1 m ρ c
  have e1 : V4 m ρ c main_arg4 = _ := at4_arg4 m ρ c
  rw [e0, e1]
theorem at5_sources : W5 m ρ c (Proc.devRef .tc main_v3) = Cert.Gcn.sources (m ((c.tc : Thread nD τ).loc main_arg1)) := (W5_of_ne m ρ c main_v3 (by decide)).trans (at4_sources m ρ c)
theorem at5_targets : W5 m ρ c (Proc.devRef .tc main_v6) = Cert.Gcn.targets (m ((c.tc : Thread nD τ).loc main_arg1)) := (W5_of_ne m ρ c main_v6 (by decide)).trans (at4_targets m ρ c)
theorem at5_weights : W5 m ρ c (Proc.devRef .tc main_v26) = Cert.Gcn.weights (m ((c.tc : Thread nD τ).loc main_arg1)) := (W5_of_ne m ρ c main_v26 (by decide)).trans (at4_weights m ρ c)
theorem at5_arg5 : W5 m ρ c (Proc.devRef .tc main_arg5) = (m ((c.tc : Thread nD τ).loc main_arg5)) := (W5_of_ne m ρ c main_arg5 (by decide)).trans (at4_arg5 m ρ c)

/-! ### After the third stretch and the second bias-and-relu region -/
theorem at6_agg : W6 m ρ c (Proc.devRef .tc main_v56)
    = Cert.Gcn.aggregate (Cert.Gcn.sources (m ((c.tc : Thread nD τ).loc main_arg1))) (Cert.Gcn.targets (m ((c.tc : Thread nD τ).loc main_arg1))) (Cert.Gcn.weights (m ((c.tc : Thread nD τ).loc main_arg1))) (Dense.product2 (layer1 m c) (m ((c.tc : Thread nD τ).loc main_arg4))) := by
  refine (stretch3_agg (W5 m ρ c)).trans ?_
  rw [at5_sources m ρ c, at5_targets m ρ c, at5_weights m ρ c, at5_product m ρ c]
theorem at6_row : W6 m ρ c (Proc.devRef .tc main_v57) = shapeCast S1x128 (m ((c.tc : Thread nD τ).loc main_arg5)) shapeCasts_S128_S1x128 := by
  refine (stretch3_row (W5 m ρ c)).trans ?_
  rw [at5_arg5 m ρ c]

theorem at7_layer2 : W7 m ρ c (Proc.devRef .tc main_v58) = layer2 m c := by
  refine (W7_arr m ρ c 2).trans ((Bias.region3 (V6 m ρ) c).trans ?_)
  have e0 : V6 m ρ c main_v56 = _ := at6_agg m ρ c
  have e1 : V6 m ρ c main_v57 = _ := at6_row m ρ c
  rw [e0, e1]
  rfl

/-- THE RESULT BUFFER at the last boundary is the network of the launch contents of the six arguments. -/
theorem result_eq : W7 m ρ c (Proc.devRef .tc main_v58)
    = Cert.Gcn.gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [at7_layer2 m ρ c]
  unfold layer2 layer1 Cert.Gcn.gcn
  rw [biasRelu_eq, biasRelu_eq, dense1_eq, dense2_eq]

end Walk

end Cert.KernelIdeal.Chain

end
-- ==== Proof.lean ====
/-
  A two-layer graph convolution: a Pallas program against its jnp reference, on the extended reals.

  Both programs compute, from node features `x`, an edge list, two weight matrices and two biases,
      relu (A (relu (A (x · W1) + b1) · W2) + b2),
  where `A` gathers each pair's source row, scales it by `deg[src]^(-1/2) · deg[dst]^(-1/2)` and adds it into the
  pair's target row (self-loops included).  The reference does everything with host operations.  The kernel program
  does the two dense products and the two bias-and-relu steps in four pallas_calls over blocks of 2000 rows and keeps
  the pair bookkeeping and the aggregation on the host, operation for operation as the reference has them.

  On the extended reals a product accumulated from zero with operands rounded to bf16 is the plain sum of products a
  host `dot_general` takes, and `max (a + b) 0` is the same whether the bias row is broadcast in the kernel or on
  the host; so the two results agree entry by entry, with no use of the inputs' finiteness: the aggregation is never
  opened, only its argument compared.

  The kernel programs' frames are generated; the reference's frame is its generated run with the result dropped; the
  idealization rewrote nothing.
-/
import proofs.«158342_j33741263078295_1_alg».proof.Defs
import proofs.«158342_j33741263078295_1_alg».proof.Proof.Gen.Kernel
import proofs.«158342_j33741263078295_1_alg».proof.Proof.Gen.Kernel.Frame
import proofs.«158342_j33741263078295_1_alg».proof.Proof.Gen.KernelIdeal
import proofs.«158342_j33741263078295_1_alg».proof.Proof.Gen.KernelIdeal.Frame
import proofs.«158342_j33741263078295_1_alg».proof.Proof.Gen.ReferenceIdeal
import proofs.«158342_j33741263078295_1_alg».proof.Proof.Gen.Pre_finite_inputs
import proofs.«158342_j33741263078295_1_alg».proof.Proof.Gen.ReferenceIdeal.Run
import proofs.«158342_j33741263078295_1_alg».proof.Proof.Spec
import proofs.«158342_j33741263078295_1_alg».proof.Proof.RefIsSpec
import proofs.«158342_j33741263078295_1_alg».proof.Proof.KernelRun
import proofs.«158342_j33741263078295_1_alg».proof.Proof.KernelChain
import Idealize.ShloMosaic.Adequacy
import Idealize.ShloMosaic.Init

noncomputable section

namespace Cert.Proof

open Idealize.ShloMosaic Idealize.ShloMosaic.TcCoe Idealize.SL.Sem

/-- The kernel program as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the network of those arguments in their result
    buffers: the kernel program's run read through its segment boundaries, the reference's run term regrouped. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Chain.result_eq m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.Gcn.reference_result m' c, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
